-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x32 : Shape := ⟨4, ![32, 512, 512, 32]⟩
abbrev S_ : Shape := ⟨0, ![]⟩

class Facts : Prop where
  bcast_S_S32x512x512x32 : S_.BroadcastsInDim S32x512x512x32 (![] : Fin 0 → Fin S32x512x512x32.rank)
  reducesTo_S32x512x512x32_S_d0_1_2_3 : S32x512x512x32.ReducesTo [0, 1, 2, 3] S_
  h_S_ : 0 < S_.numel

variable [Facts]

def fn {F : FTy → Type} [FloatOps F] (main_arg0 : FVec F S32x512x512x32 .f32) : IVec S_ 1 :=
  let main_v0 : FVec F S32x512x512x32 .f32 := Host.absf main_arg0
  let main_cst : FVec F S_ .f32 := constant S_ .f32 0x7F800000#32
  let main_v1 : FVec F S32x512x512x32 .f32 := broadcastInDim S32x512x512x32 ![] bcast_S_S32x512x512x32 main_cst
  let main_v2 : IVec S32x512x512x32 1 := cmpf .olt main_v0 main_v1
  let main_c : IVec S_ 1 := constantI S_ 1 1#1
  let main_v3 : IVec S_ 1 := (fun x v => Host.reduce IntOp.andi x v reducesTo_S32x512x512x32_S_d0_1_2_3 h_S_) main_v2 main_c
  main_v3
-- ==== Kernel.lean ====
abbrev S32x512x512x32 : Shape := ⟨4, ![32, 512, 512, 32]⟩
abbrev S32x512x32x512 : Shape := ⟨4, ![32, 512, 32, 512]⟩
abbrev S256x256 : Shape := ⟨2, ![256, 256]⟩
abbrev S_ : Shape := ⟨0, ![]⟩
abbrev S256x2x256 : Shape := ⟨3, ![256, 2, 256]⟩
abbrev S512x256 : Shape := ⟨2, ![512, 256]⟩
abbrev S32x256x32x256 : Shape := ⟨4, ![32, 256, 32, 256]⟩
abbrev S1x128x32x512 : Shape := ⟨4, ![1, 128, 32, 512]⟩
abbrev S1x64x32x256 : Shape := ⟨4, ![1, 64, 32, 256]⟩
abbrev S128x32x512 : Shape := ⟨3, ![128, 32, 512]⟩
abbrev S64x2x32x512 : Shape := ⟨4, ![64, 2, 32, 512]⟩
abbrev S64x1x32x512 : Shape := ⟨4, ![64, 1, 32, 512]⟩
abbrev S64x32x512 : Shape := ⟨3, ![64, 32, 512]⟩
abbrev S2048x512 : Shape := ⟨2, ![2048, 512]⟩
abbrev S2048x256 : Shape := ⟨2, ![2048, 256]⟩
abbrev S64x32x256 : Shape := ⟨3, ![64, 32, 256]⟩
abbrev S32x256x256x32 : Shape := ⟨4, ![32, 256, 256, 32]⟩

abbrev nBuf : Space → Nat
  | .hbm => 16
  | .vmem => 5
  | .smem => 0
  | _ => 0

abbrev bufTy : (tb : Table) → Fin (tcTables nBuf tb) → BufTy
  | .hbm, ⟨0, _⟩ => ⟨S32x512x512x32, .f32⟩
  | .hbm, ⟨1, _⟩ => ⟨S32x512x32x512, .f32⟩
  | .hbm, ⟨2, _⟩ => ⟨S256x256, .i32⟩
  | .hbm, ⟨3, _⟩ => ⟨S256x256, .i32⟩
  | .hbm, ⟨4, _⟩ => ⟨S_, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S256x256, .f32⟩
  | .hbm, ⟨9, _⟩ => ⟨S_, .f32⟩
  | .hbm, ⟨10, _⟩ => ⟨S256x256, .f32⟩
  | .hbm, ⟨11, _⟩ => ⟨S256x256, .f32⟩
  | .hbm, ⟨12, _⟩ => ⟨S256x2x256, .f32⟩
  | .hbm, ⟨13, _⟩ => ⟨S512x256, .f32⟩
  | .hbm, ⟨14, _⟩ => ⟨S32x256x32x256, .f32⟩
  | .hbm, ⟨15, _⟩ => ⟨S32x256x256x32, .f32⟩
  | .local _ .vmem, ⟨0, _⟩ => ⟨S1x128x32x512, .f32⟩
  | .local _ .vmem, ⟨1, _⟩ => ⟨S1x128x32x512, .f32⟩
  | .local _ .vmem, ⟨2, _⟩ => ⟨S512x256, .f32⟩
  | .local _ .vmem, ⟨3, _⟩ => ⟨S1x64x32x256, .f32⟩
  | .local _ .vmem, ⟨4, _⟩ => ⟨S1x64x32x256, .f32⟩
  | _, _ => ⟨S32x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S32x512x512x32_S32x512x32x512_0_1_3_2 : S32x512x512x32.Transposes [0, 1, 3, 2] S32x512x32x512
  bcast_S_S256x256 : S_.BroadcastsInDim S256x256 (![] : Fin 0 → Fin S256x256.rank)
  bcast_S256x256_S256x2x256_0_2 : S256x256.BroadcastsInDim S256x2x256 (![0, 2] : Fin 2 → Fin S256x2x256.rank)
  shapeCasts_S256x2x256_S512x256 : S256x2x256.ShapeCasts S512x256
  inb_S1x128x32x512_S1x128x32x512_0_0_0_0 : ∀ a, (![0, 0, 0, 0] : Fin 4 → Nat) a + S1x128x32x512.size a ≤ S1x128x32x512.size a
  h_S1x128x32x512 : 0 < S1x128x32x512.numel
  shapeCasts_S1x128x32x512_S128x32x512 : S1x128x32x512.ShapeCasts S128x32x512
  shapeCasts_S128x32x512_S64x2x32x512 : S128x32x512.ShapeCasts S64x2x32x512
  slices_S64x2x32x512_o0_0_0_0_S64x1x32x512 : S64x2x32x512.Slices ![0, 0, 0, 0] S64x1x32x512
  shapeCasts_S64x1x32x512_S64x32x512 : S64x1x32x512.ShapeCasts S64x32x512
  slices_S64x2x32x512_o0_1_0_0_S64x1x32x512 : S64x2x32x512.Slices ![0, 1, 0, 0] S64x1x32x512
  shapeCasts_S64x32x512_S2048x512 : S64x32x512.ShapeCasts S2048x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S2048x256_S64x32x256 : S2048x256.ShapeCasts S64x32x256
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  shapeCasts_S64x32x256_S1x64x32x256 : S64x32x256.ShapeCasts S1x64x32x256
  transposes_S32x256x32x256_S32x256x256x32_0_1_3_2 : S32x256x32x256.Transposes [0, 1, 3, 2] S32x256x256x32
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x512.size a ≤ S32x512x32x512.size a
  hwx0_0 : ∀ i : grid0.Coords, EltTy.bits .f32 = 32 ∨ (Rect.block (s := S32x512x32x512) S1x128x32x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x256.size a ≤ S32x256x32x256.size a
  hwx0_2 : ∀ i : grid0.Coords, EltTy.bits .f32 = 32 ∨ (Rect.block (s := S32x256x32x256) S1x64x32x256.size (cc0_transform_2 i) (hinb0_2 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v0) S1x128x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x512x512x32 : Shape := ⟨4, ![32, 512, 512, 32]⟩
abbrev S32x256x2x256x2x32 : Shape := ⟨6, ![32, 256, 2, 256, 2, 32]⟩
abbrev S_ : Shape := ⟨0, ![]⟩
abbrev S32x256x256x32 : Shape := ⟨4, ![32, 256, 256, 32]⟩

abbrev nBuf : Space → Nat
  | .hbm => 7
  | .vmem => 0
  | .smem => 0
  | _ => 0

abbrev bufTy : (tb : Table) → Fin (tcTables nBuf tb) → BufTy
  | .hbm, ⟨0, _⟩ => ⟨S32x512x512x32, .f32⟩
  | .hbm, ⟨1, _⟩ => ⟨S32x256x2x256x2x32, .f32⟩
  | .hbm, ⟨2, _⟩ => ⟨S_, .f32⟩
  | .hbm, ⟨3, _⟩ => ⟨S32x256x256x32, .f32⟩
  | .hbm, ⟨4, _⟩ => ⟨S_, .f32⟩
  | .hbm, ⟨5, _⟩ => ⟨S32x256x256x32, .f32⟩
  | .hbm, ⟨6, _⟩ => ⟨S32x256x256x32, .f32⟩
  | _, _ => ⟨S32x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S32x512x512x32_S32x256x2x256x2x32 : S32x512x512x32.ShapeCasts S32x256x2x256x2x32
  reducesTo_S32x256x2x256x2x32_S32x256x256x32_d2_4 : S32x256x2x256x2x32.ReducesTo [2, 4] S32x256x256x32
  h_S_ : 0 < S_.numel
  bcast_S_S32x256x256x32 : S_.BroadcastsInDim S32x256x256x32 (![] : Fin 0 → Fin S32x256x256x32.rank)

variable [Facts₀]

class Facts : Prop extends Facts₀ where

variable [Facts]
-- ==== Proof.HaarSpec.lean ====
/-
  The low-low band of one level of the two-dimensional Haar transform over a batch of images with the
  channel axis last: entry (b, p, q, c) of the result is one half of the sum of the 2 × 2 block of the input
  whose corner is (b, 2p, 2q, c). Stated here, over the extended reals and with no program in sight:
  that function of the input (`lowpass`), the value of the literal one half, and the one law that joins the
  two ways of computing it — column q of the pairing matrix, whose entry (k, q) is one half when k is 2q or
  2q + 1 and zero otherwise, contracted against a row f picks f (2q) and f (2q + 1), each halved. A
  nonnegative real factor distributes over a sum of extended reals whatever the summands, so no entry of
  the input has to be finite for the law to hold.
-/
import Idealize.ShloMosaic.PureOps.Ideal
import Idealize.ShloMosaic.PureOps.Ideal.Laws
import Idealize.ShloMosaic.Lib.ValueIdx

noncomputable section

namespace Cert.HaarPool

open Idealize.ShloMosaic Idealize.ShloMosaic.ValueIdx

/-- The literal `0.5` denotes the real one half. -/
theorem half_eq : Ideal.ofBits .f32 0x3F000000#32 = ((1 / 2 : ℝ) : EReal) := by
  simp [Ideal.ofBits, Ideal.ieee, -EReal.coe_mul]; norm_num

/-- One half, as both programs spell it. -/
abbrev half : EReal := Ideal.ofBits .f32 0x3F000000#32

theorem half_nonneg : 0 ≤ half := by
  show (0 : EReal) ≤ Ideal.ofBits .f32 0x3F000000#32
  rw [half_eq]; exact_mod_cast (by norm_num : (0 : ℝ) ≤ 1 / 2)

theorem half_ne_top : half ≠ ⊤ := by
  show Ideal.ofBits .f32 0x3F000000#32 ≠ ⊤
  rw [half_eq]; exact EReal.coe_ne_top _

/-- The even member 2q of the q-th adjacent pair among 512 positions. -/
def evenOf (q : Fin 256) : Fin 512 := ⟨2 * q.val, by omega⟩
/-- The odd member 2q + 1 of that pair. -/
def oddOf (q : Fin 256) : Fin 512 := ⟨2 * q.val + 1, by omega⟩

@[simp] theorem evenOf_val (q : Fin 256) : (evenOf q).val = 2 * q.val := rfl
@[simp] theorem oddOf_val (q : Fin 256) : (oddOf q).val = 2 * q.val + 1 := rfl

/-- The low-low band: one half of the sum of each 2 × 2 block, rows first. -/
def lowpass (x : (⟨4, ![32, 512, 512, 32]⟩ : Shape).Idx → EReal) : (⟨4, ![32, 256, 256, 32]⟩ : Shape).Idx → EReal :=
  fun i =>
    ((x (ix4 (i 0) (evenOf (i 1)) (evenOf (i 2)) (i 3)) + x (ix4 (i 0) (evenOf (i 1)) (oddOf (i 2)) (i 3)))
      + (x (ix4 (i 0) (oddOf (i 1)) (evenOf (i 2)) (i 3)) + x (ix4 (i 0) (oddOf (i 1)) (oddOf (i 2)) (i 3)))) * half

/-- The positions whose pair is the q-th are exactly 2q and 2q + 1. -/
theorem filter_pair (q : Fin 256) :
    (Finset.univ.filter fun k : Fin 512 => k.val / 2 = q.val) = {evenOf q, oddOf q} := by
  ext k
  simp only [Finset.mem_filter, Finset.mem_univ, true_and, Finset.mem_insert, Finset.mem_singleton, Fin.ext_iff,
    evenOf_val, oddOf_val]
  omega

/-- A row contracted against column q of the pairing matrix (`d k` one on the q-th pair and zero elsewhere, times one
    half) is the sum of the row's two entries on that pair, halved. -/
theorem sum_pairing (f d : Fin 512 → EReal) (q : Fin 256)
    (hd : ∀ k : Fin 512, d k = if k.val / 2 = q.val then 1 else 0) :
    ∑ k : Fin 512, f k * (d k * half) = (f (evenOf q) + f (oddOf q)) * half := by
  have h1 : ∀ k : Fin 512, f k * (d k * half) = if k.val / 2 = q.val then f k * half else 0 := by
    intro k
    rw [hd k]
    split_ifs
    · rw [one_mul]
    · rw [zero_mul, mul_zero]
  simp only [h1]
  rw [Finset.sum_ite, Finset.sum_const_zero, add_zero, filter_pair,
    Finset.sum_pair (by simp [Fin.ext_iff] : evenOf q ≠ oddOf q),
    EReal.right_distrib_of_nonneg_of_ne_top half_nonneg half_ne_top]

end Cert.HaarPool

end
-- ==== Proof.HaarReference.lean ====
/-
  The reference computes `lowpass`. Its program views the input [32, 512, 512, 32] as
  [32, 256, 2, 256, 2, 32] — entry (b, p, r, q, s, c) of the view is entry (b, 2p + r, 2q + s, c) of the input, the
  two having one row-major position —, sums the view over its axes r and s from the initial value zero, and
  multiplies by one half. The sum over the two axes is the sum over the four entries of the view that keep
  (b, p, q, c): those are the 2 × 2 block of the input at (b, 2p, 2q, c).
-/
import proofs.«168164_g9088150799036_feedfinal_321_15_alg».proof.Proof.Gen.ReferenceIdeal.Read
import proofs.«168164_g9088150799036_feedfinal_321_15_alg».proof.Proof.HaarSpec
import Idealize.ShloMosaic.Lib.ValueIdxRank6
import Idealize.ShloMosaic.Lib.Pipeline.Value
import Idealize.ShloMosaic.PureOps.Ideal.Laws

noncomputable section

namespace Cert.HaarPool.Reference

open Idealize.ShloMosaic Idealize.ShloMosaic.ValueIdx
open Cert.ReferenceIdeal Cert.ReferenceIdeal.Gen Cert.ReferenceIdeal.Read

/-- The six-axis view read at (b, p, r, q, s, c) is the input at (b, 2p + r, 2q + s, c). -/
theorem view_apply (x : S32x512x512x32.Idx → EReal) (h : S32x512x512x32.ShapeCasts S32x256x2x256x2x32)
    (b : Fin 32) (p : Fin 256) (r : Fin 2) (q : Fin 256) (s : Fin 2) (c : Fin 32) (hp hq : Fin 512)
    (ehp : hp.val = 2 * p.val + r.val) (ehq : hq.val = 2 * q.val + s.val) :
    shapeCast S32x256x2x256x2x32 x h (ix6 b p r q s c) = x (ix4 b hp hq c) := by
  refine shapeCast_apply x h _ _ ?_
  rw [Shape.rowMajor_val_four, Shape.rowMajor_val_six]
  show ((b.val * 512 + hp.val) * 512 + hq.val) * 32 + c.val
    = ((((b.val * 256 + p.val) * 2 + r.val) * 256 + q.val) * 2 + s.val) * 32 + c.val
  omega

/-- The entries of the view that the sum over axes 2 and 4 sends to (b, p, q, c) are the four
    (b, p, r, q, s, c): the sum over them, as a sum over r and s. -/
theorem sum_block (h : S32x256x2x256x2x32.ReducesTo [2, 4] S32x256x256x32) (y : S32x256x2x256x2x32.Idx → EReal)
    (i : S32x256x256x32.Idx) :
    ∑ k ∈ Finset.univ.filter (fun k => h.drop k = i), y k
      = ∑ rs : Fin 2 × Fin 2, y (ix6 (i 0) (i 1) rs.1 (i 2) rs.2 (i 3)) := by
  refine Finset.sum_nbij' (fun k => (k 2, k 4)) (fun rs => ix6 (i 0) (i 1) rs.1 (i 2) rs.2 (i 3)) ?_ ?_ ?_ ?_ ?_
  · intro k _; exact Finset.mem_univ _
  · intro rs _
    simp only [Finset.mem_filter, Finset.mem_univ, true_and]
    funext b
    apply Fin.ext
    match b with
    | ⟨0, _⟩ => exact h.drop_apply_val_of_eq _ 0 0
    | ⟨1, _⟩ => exact h.drop_apply_val_of_eq _ 1 1
    | ⟨2, _⟩ => exact h.drop_apply_val_of_eq _ 2 3
    | ⟨3, _⟩ => exact h.drop_apply_val_of_eq _ 3 5
  · intro k hk
    simp only [Finset.mem_filter, Finset.mem_univ, true_and] at hk
    have e0 : (i 0).val = (k 0).val := by rw [← hk]; exact h.drop_apply_val_of_eq k 0 0
    have e1 : (i 1).val = (k 1).val := by rw [← hk]; exact h.drop_apply_val_of_eq k 1 1
    have e2 : (i 2).val = (k 3).val := by rw [← hk]; exact h.drop_apply_val_of_eq k 2 3
    have e3 : (i 3).val = (k 5).val := by rw [← hk]; exact h.drop_apply_val_of_eq k 3 5
    funext a
    apply Fin.ext
    match a with
    | ⟨0, _⟩ => exact e0
    | ⟨1, _⟩ => exact e1
    | ⟨2, _⟩ => rfl
    | ⟨3, _⟩ => exact e2
    | ⟨4, _⟩ => rfl
    | ⟨5, _⟩ => exact e3
  · intro rs _; rfl
  · intro k hk
    simp only [Finset.mem_filter, Finset.mem_univ, true_and] at hk
    have e0 : (i 0).val = (k 0).val := by rw [← hk]; exact h.drop_apply_val_of_eq k 0 0
    have e1 : (i 1).val = (k 1).val := by rw [← hk]; exact h.drop_apply_val_of_eq k 1 1
    have e2 : (i 2).val = (k 3).val := by rw [← hk]; exact h.drop_apply_val_of_eq k 2 3
    have e3 : (i 3).val = (k 5).val := by rw [← hk]; exact h.drop_apply_val_of_eq k 3 5
    refine congrArg y (funext fun a => Fin.ext ?_)
    match a with
    | ⟨0, _⟩ => exact e0.symm
    | ⟨1, _⟩ => exact e1.symm
    | ⟨2, _⟩ => rfl
    | ⟨3, _⟩ => exact e2.symm
    | ⟨4, _⟩ => rfl
    | ⟨5, _⟩ => exact e3.symm

/-- The reference's result, as the program's run states it, is the low-low band of the input. -/
theorem result_eq (x : (⟨S32x512x512x32, .f32⟩ : BufTy).Contents (Elt Ideal)) :
    val_main_v3 (F := Ideal) x = lowpass x := by
  funext i
  rw [val_main_v3_apply, val_main_v2_apply, val_main_cst_0_apply]
  unfold val_main_v1 val_main_v0 Host.reduceAdd
  rw [Ideal.hostReduceAdd_def]
  unfold Ideal.hostReduceAdd
  rw [val_main_cst_apply, sum_block, Fintype.sum_prod_type, Fin.sum_univ_two, Fin.sum_univ_two, Fin.sum_univ_two]
  show (Ideal.ofBits .f32 0x00000000#32 + _) * half = _
  rw [Ideal.ofBits_zero_f32, zero_add,
    view_apply x _ (i 0) (i 1) 0 (i 2) 0 (i 3) (evenOf (i 1)) (evenOf (i 2)) rfl rfl,
    view_apply x _ (i 0) (i 1) 0 (i 2) 1 (i 3) (evenOf (i 1)) (oddOf (i 2)) rfl rfl,
    view_apply x _ (i 0) (i 1) 1 (i 2) 0 (i 3) (oddOf (i 1)) (evenOf (i 2)) rfl rfl,
    view_apply x _ (i 0) (i 1) 1 (i 2) 1 (i 3) (oddOf (i 1)) (oddOf (i 2)) rfl rfl]
  rfl

end Cert.HaarPool.Reference

end
-- ==== Proof.HaarPrelude.lean ====
/-
  What the region finds in its two input arrays. Before the call @main writes two arrays: the input with its
  last two axes exchanged, so that entry (b, h, c, w) of the first array is entry (b, h, w, c) of the input; and
  the pairing matrix [512, 256], built as the 256 × 256 identity (a comparison of the row number with the column
  number, as a float) times one half, each row then written twice: entry (k, q) is one half when k / 2 = q
  and zero otherwise.
-/
import proofs.«168164_g9088150799036_feedfinal_321_15_alg».proof.Proof.Gen.KernelIdeal.Frame
import proofs.«168164_g9088150799036_feedfinal_321_15_alg».proof.Proof.HaarSpec
import Idealize.ShloMosaic.Lib.StableHlo.Run
import Idealize.ShloMosaic.Lib.Pipeline.Value

noncomputable section

namespace Cert.HaarPool.Prelude

open Idealize.ShloMosaic Idealize.ShloMosaic.TcCoe Idealize.ShloMosaic.ValueIdx Idealize.SL.Sem Idealize.ShloMosaic.StableHlo
open Cert.KernelIdeal Cert.KernelIdeal.Gen

/-- Two numbers below 256, as 32-bit words, compare equal exactly when they are equal (adding the zero word to the
    first changes nothing). -/
theorem cmp_small (a b : Nat) (ha : a < 256) (hb : b < 256) :
    IntOp.cmpi .eq (IntOp.addi (BitVec.ofNat 32 a) 0#32) (BitVec.ofNat 32 b) = if a = b then 1#1 else 0#1 := by
  unfold IntOp.cmpi IntOp.addi
  rw [BitVec.add_zero]
  by_cases h : a = b
  · subst h; simp
  · rw [if_neg h]
    have hne : (BitVec.ofNat 32 a == BitVec.ofNat 32 b) = false := by
      rw [beq_eq_false_iff_ne]
      intro e
      have := congrArg BitVec.toNat e
      simp only [BitVec.toNat_ofNat] at this
      omega
    show BitVec.ofBool (BitVec.ofNat 32 a == BitVec.ofNat 32 b) = 0#1
    rw [hne]; rfl

/-- A one-bit word as a float is one or zero. -/
theorem bit_to_float (p : Prop) [Decidable p] :
    (FloatOps.uitofp .f32 (if p then 1#1 else 0#1 : BitVec 1) : Ideal .f32) = if p then 1 else 0 := by
  by_cases h : p
  · rw [if_pos h, if_pos h]; show (((1#1 : BitVec 1).toNat : ℝ) : EReal) = 1; simp
  · rw [if_neg h, if_neg h]; show (((0#1 : BitVec 1).toNat : ℝ) : EReal) = 0; simp

/-- The pairing matrix as @main builds it. -/
def pairing : S512x256.Idx → EReal :=
  shapeCast S512x256
    (broadcastInDim S256x2x256 ![0, 2] bcast_S256x256_S256x2x256_0_2
      (mulf
        (uitofp .f32
          (cmpi .eq
            (addi (iotaInDim S256x256 32 0) (broadcastInDim S256x256 ![] bcast_S_S256x256 (constantI S_ 32 0#32)))
            (iotaInDim S256x256 32 1)))
        (broadcastInDim S256x256 ![] bcast_S_S256x256 (constant (F := Ideal) S_ .f32 0x3F000000#32))))
    shapeCasts_S256x2x256_S512x256

/-- Its entry (k, q): one half on the q-th pair of rows, zero elsewhere. -/
theorem pairing_apply (k : Fin 512) (q : Fin 256) :
    pairing (ix2 k q) = (if k.val / 2 = q.val then 1 else 0) * half := by
  have hk : k.val / 2 < 256 := by have := k.isLt; omega
  have hr : k.val % 2 < 2 := Nat.mod_lt _ (by decide)
  unfold pairing
  refine (shapeCast_apply _ _ (ix2 k q) (ix3 (⟨k.val / 2, hk⟩ : Fin 256) (⟨k.val % 2, hr⟩ : Fin 2) q) (by
    rw [Shape.rowMajor_val_three, Shape.rowMajor_val_two]
    show ((k.val / 2) * 2 + k.val % 2) * 256 + q.val = k.val * 256 + q.val
    omega)).trans ?_
  refine (broadcastInDim_apply _ _ _ _ (ix2 (⟨k.val / 2, hk⟩ : Fin 256) q) (fun a => by
    match a with
    | ⟨0, _⟩ => rfl
    | ⟨1, _⟩ => rfl)).trans ?_
  show FloatOps.mulf (FloatOps.uitofp .f32 (IntOp.cmpi .eq (IntOp.addi (BitVec.ofNat 32 (k.val / 2)) 0#32) (BitVec.ofNat 32 q.val)))
    (Ideal.ofBits .f32 0x3F000000#32) = _
  rw [cmp_small _ _ hk q.isLt, bit_to_float]
  rfl

variable (m : (ℓ : Loc nD τ sig) → Buf (Elt Ideal) ℓ)

/-- The region finds the pairing matrix in its second input array. -/
theorem found_pairing (c : Dev nD) : (V m c main_v10 : S512x256.Idx → EReal) = pairing := by
  show StableHlo.after hostOps0 (fun b => m (c, b)) (Proc.devRef .tc main_v10) = _
  after_results
  rfl

/-- The region finds the input with its last two axes exchanged in its first input array. -/
theorem found_swapped (c : Dev nD) :
    (V m c main_v0 : S32x512x32x512.Idx → EReal)
      = transpose S32x512x32x512 [0, 1, 3, 2] (m ((c : Thread nD τ).loc main_arg0)) transposes_S32x512x512x32_S32x512x32x512_0_1_3_2 := by
  show StableHlo.after hostOps0 (fun b => m (c, b)) (Proc.devRef .tc main_v0) = _
  after_results <;> rfl

/-- Entry (b, h, c, w) of that array is entry (b, h, w, c) of the input. -/
theorem found_swapped_apply (c : Dev nD) (b : Fin 32) (h : Fin 512) (ch : Fin 32) (w : Fin 512) :
    (V m c main_v0 : S32x512x32x512.Idx → EReal) (ix4 b h ch w)
      = (m ((c : Thread nD τ).loc main_arg0) : S32x512x512x32.Idx → EReal) (ix4 b h w ch) := by
  rw [found_swapped]
  exact transpose_apply _ _ _ _ _ (fun a => match a with | ⟨0, _⟩ => rfl | ⟨1, _⟩ => rfl | ⟨2, _⟩ => rfl | ⟨3, _⟩ => rfl)

end Cert.HaarPool.Prelude

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.HaarBody.lean ====
/-
  What the body stores, read at coordinates. The body views its input block [1, 128, 32, 512] as 64 pairs of
  rows, adds the two rows of each pair, lays the 64 × 32 sums out as the rows of a [2048, 512] matrix,
  multiplies that matrix by the second block [512, 256] into a zero accumulator, and stores the product laid
  out as [1, 64, 32, 256]. So the stored entry (0, a, c, q) is the sum over k of
  (block (0, 2a, c, k) + block (0, 2a + 1, c, k)) · second (k, q).
-/
import proofs.«168164_g9088150799036_feedfinal_321_15_alg».proof.Proof.Gen.KernelIdeal.Skeleton
import proofs.«168164_g9088150799036_feedfinal_321_15_alg».proof.Proof.LibMatmul
import Idealize.ShloMosaic.Lib.Pipeline.Value

noncomputable section

namespace Cert.HaarPool.Body

open Idealize.ShloMosaic Idealize.ShloMosaic.ValueIdx
open Cert.KernelIdeal Cert.KernelIdeal.Gen

/-- The first row 2a of the a-th pair among the block's 128 rows. -/
def evenRow (a : Fin 64) : Fin 128 := ⟨2 * a.val, by omega⟩
/-- Its second row 2a + 1. -/
def oddRow (a : Fin 64) : Fin 128 := ⟨2 * a.val + 1, by omega⟩

@[simp] theorem evenRow_val (a : Fin 64) : (evenRow a).val = 2 * a.val := rfl
@[simp] theorem oddRow_val (a : Fin 64) : (oddRow a).val = 2 * a.val + 1 := rfl

/-- Row r of the a-th pair, channel c, position k, read through the body's two views and its slice of the pairs:
    the block at row 2a + r. -/
theorem pair_row_apply (x0 : S1x128x32x512.Idx → EReal) (r : Fin 2) (row : Fin 128) (a : Fin 64) (c : Fin 32) (k : Fin 512)
    (off : Fin 4 → Nat) (hoff : off = ![0, r.val, 0, 0]) (hs : S64x2x32x512.Slices off S64x1x32x512)
    (hrow : row.val = 2 * a.val + r.val) :
    shapeCast S64x32x512
        (extractStridedSlice S64x1x32x512 off
          (shapeCast S64x2x32x512 (shapeCast S128x32x512 x0 shapeCasts_S1x128x32x512_S128x32x512)
            shapeCasts_S128x32x512_S64x2x32x512) hs)
        shapeCasts_S64x1x32x512_S64x32x512 (ix3 a c k)
      = x0 (ix4 (0 : Fin 1) row c k) := by
  subst hoff
  refine (shapeCast_apply _ _ (ix3 a c k) (ix4 a (0 : Fin 1) c k) (by
    rw [Shape.rowMajor_val_four, Shape.rowMajor_val_three]
    show ((a.val * 1 + 0) * 32 + c.val) * 512 + k.val = (a.val * 32 + c.val) * 512 + k.val
    omega)).trans ?_
  refine (extractStridedSlice_apply _ _ _ _ (ix4 a r c k) (fun ax => by
    match ax with
    | ⟨0, _⟩ => show a.val = 0 + a.val; omega
    | ⟨1, _⟩ => show r.val = r.val + 0; omega
    | ⟨2, _⟩ => show c.val = 0 + c.val; omega
    | ⟨3, _⟩ => show k.val = 0 + k.val; omega)).trans ?_
  refine (shapeCast_apply _ _ (ix4 a r c k) (ix3 row c k) (by
    rw [Shape.rowMajor_val_three, Shape.rowMajor_val_four]
    show (row.val * 32 + c.val) * 512 + k.val = ((a.val * 2 + r.val) * 32 + c.val) * 512 + k.val
    omega)).trans ?_
  exact shapeCast_apply _ _ (ix3 row c k) (ix4 (0 : Fin 1) row c k) (by
    rw [Shape.rowMajor_val_four, Shape.rowMajor_val_three]
    show ((0 * 128 + row.val) * 32 + c.val) * 512 + k.val = (row.val * 32 + c.val) * 512 + k.val
    omega)

/-- The stored entry (0, a, c, q): the two rows of the a-th pair added, contracted against column q of the
    second block. -/
theorem stored_apply (x0 : S1x128x32x512.Idx → EReal) (x1 : S512x256.Idx → EReal)
    (z : Fin 1) (a : Fin 64) (c : Fin 32) (q : Fin 256) :
    k0_pay1 (F := Ideal) x0 x1 (ix4 z a c q)
      = ∑ k : Fin 512, (x0 (ix4 (0 : Fin 1) (evenRow a) c k) + x0 (ix4 (0 : Fin 1) (oddRow a) c k)) * x1 (ix2 k q) := by
  have hz : z.val = 0 := by have := z.isLt; omega
  have hrow : a.val * 32 + c.val < 2048 := by have := a.isLt; have := c.isLt; omega
  unfold k0_pay1
  refine (shapeCast_apply _ _ (ix4 z a c q) (ix3 a c q) (by
    rw [Shape.rowMajor_val_three, Shape.rowMajor_val_four]
    show (a.val * 32 + c.val) * 256 + q.val = (((z.val * 64 + a.val) * 32 + c.val) * 256 + q.val)
    omega)).trans ?_
  refine (shapeCast_apply _ _ (ix3 a c q) (ix2 (⟨a.val * 32 + c.val, hrow⟩ : Fin 2048) q) (by
    rw [Shape.rowMajor_val_two, Shape.rowMajor_val_three]
    show (a.val * 32 + c.val) * 256 + q.val = (a.val * 32 + c.val) * 256 + q.val
    rfl)).trans ?_
  refine (matmul_zero_ix2 dot_S2048x512_S512x256_S2048x256_1_0_0_1_n_n rfl rfl rfl rfl rfl rfl (some .fp32) _ _ _ _).trans ?_
  refine Finset.sum_congr rfl fun k _ => ?_
  refine congrArg₂ (· * ·) ?_ ?_
  · refine (shapeCast_apply _ _ (ix2 (⟨a.val * 32 + c.val, hrow⟩ : Fin 2048) k) (ix3 a c k) (by
      rw [Shape.rowMajor_val_three, Shape.rowMajor_val_two]
      show (a.val * 32 + c.val) * 512 + k.val = (a.val * 32 + c.val) * 512 + k.val
      rfl)).trans ?_
    refine congrArg₂ (· + ·) ?_ ?_
    · exact pair_row_apply x0 0 (evenRow a) a c k _ rfl _ (by simp)
    · exact pair_row_apply x0 1 (oddRow a) a c k _ rfl _ (by simp)
  · rw [shapeCast_self]

/-- The same at any index y of the stored block: its coordinates are (0, y 1, y 2, y 3). -/
theorem stored_at (x0 : S1x128x32x512.Idx → EReal) (x1 : S512x256.Idx → EReal) (y : S1x64x32x256.Idx) :
    k0_pay1 (F := Ideal) x0 x1 y
      = ∑ k : Fin 512, (x0 (ix4 (0 : Fin 1) (evenRow (y 1)) (y 2) k) + x0 (ix4 (0 : Fin 1) (oddRow (y 1)) (y 2) k)) * x1 (ix2 k (y 3)) :=
  (congrArg (k0_pay1 (F := Ideal) x0 x1) (eq_ix4 y)).trans (stored_apply x0 x1 (y 0) (y 1) (y 2) (y 3))

end Cert.HaarPool.Body

end
-- ==== Proof.HaarBlocks.lean ====
/-
  From blocks to the array. Grid point (b, g) of the 32 × 4 grid reads rows 128g … 128g + 127 of image b of the
  exchanged input and the whole pairing matrix, and writes back rows 64g … 64g + 63 of image b of the result
  [32, 256, 32, 256]. What it writes is the block, at those rows, of ONE function of the two input arrays:
  entry (b, p, c, q) is the sum over k of (first (b, 2p, c, k) + first (b, 2p + 1, c, k)) · second (k, q)
  (`pooled`). The 128 blocks tile the result array, so after the run the array is that function.
-/
import proofs.«168164_g9088150799036_feedfinal_321_15_alg».proof.Proof.Gen.KernelIdeal.Frame
import proofs.«168164_g9088150799036_feedfinal_321_15_alg».proof.Proof.HaarSpec
import proofs.«168164_g9088150799036_feedfinal_321_15_alg».proof.Proof.HaarBody
import Idealize.ShloMosaic.Lib.Pipeline.Value

set_option maxRecDepth 16384

noncomputable section

namespace Cert.HaarPool.Blocks

open Idealize.ShloMosaic Idealize.ShloMosaic.TcCoe Idealize.ShloMosaic.ValueIdx Idealize.SL.Sem
open Idealize.ShloMosaic.Pipeline (Dat)
open Cert.KernelIdeal Cert.KernelIdeal.Gen Cert.HaarPool.Body

/-- The result array as one function of the two input arrays. -/
def pooled (first : S32x512x32x512.Idx → EReal) (second : S512x256.Idx → EReal) : S32x256x32x256.Idx → EReal :=
  fun i => ∑ k : Fin 512,
    (first (ix4 (i 0) (evenOf (i 1)) (i 2) k) + first (ix4 (i 0) (oddOf (i 1)) (i 2) k)) * second (ix2 k (i 3))

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The printed index maps over the grid: the input block and the output block have the same image number and
    the same row-group number, and start at zero on their last two axes; the pairing matrix is one block. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0
    ∧ win0_2.index t (0 : Fin 4) ≤ 31 ∧ win0_2.index t (1 : Fin 4) ≤ 3 :=
  (by decide +kernel : ∀ t : Fin grid0.N, _)

/-- Every (image, row group) is some grid point's. -/
theorem index_onto : ∀ (b : Fin 32) (g : Fin 4), ∃ t : Fin cfg0.N, win0_2.index t = ![b.val, g.val, 0, 0] :=
  (by decide +kernel : ∀ (b : Fin 32) (g : Fin 4), ∃ t : Fin grid0.N, win0_2.index t = ![b.val, g.val, 0, 0])

variable (m : (ℓ : Loc nD τ sig) → Buf (Elt Ideal) ℓ)

/-- What grid point t writes back is block t of `pooled` of the two arrays as the region finds them. -/
theorem flushed_eq (c : Dev nD) (t : Fin cfg0.N) :
    (dats m 0 c).flushed 2 t
      = ((cfg0.win 2).blk t).view.read (Elt Ideal) (pooled (V m c main_v0) (V m c main_v10)) := by
  show (cfg0.win 2).cut (grid0.coords t) ((dats m 0 c).after 2 t) = _
  rw [after0_2]
  unfold out0_2
  rw [View.canon_unit_zero zero4]
  simp only [View.ld_unit_zero (S := S1x128x32x512) zero4, View.ld_unit_zero (S := S512x256) zero2]
  obtain ⟨e0, e1, e2, e3, e4, e5, e6, e7, e8, e9⟩ := index_facts t
  funext y
  show k0_pay1 (F := Ideal) (iblk m c 0 t) (iblk m c 1 t) y
    = pooled (V m c main_v0) (V m c main_v10) (((cfg0.win 2).blk t).view.emb y)
  rw [stored_at (iblk m c 0 t) (iblk m c 1 t) y]
  unfold pooled
  have hy0 : (y 0).val < 1 := (y 0).isLt
  have hy1 : (y 1).val < 64 := (y 1).isLt
  refine Finset.sum_congr rfl fun k _ => ?_
  have hE : ((cfg0.win 0).blk t).view.emb (ix4 (0 : Fin 1) (evenRow (y 1)) (y 2) k)
      = ix4 ((((cfg0.win 2).blk t).view.emb y) 0) (evenOf ((((cfg0.win 2).blk t).view.emb y) 1))
          ((((cfg0.win 2).blk t).view.emb y) 2) k := by
    funext a; apply Fin.ext
    match a with
    | ⟨0, _⟩ => show win0_0.index t (0 : Fin 4) * 1 + 1 * 0 = win0_2.index t (0 : Fin 4) * 1 + 1 * (y 0).val; omega
    | ⟨1, _⟩ => show win0_0.index t (1 : Fin 4) * 128 + 1 * (2 * (y 1).val) = 2 * (win0_2.index t (1 : Fin 4) * 64 + 1 * (y 1).val); omega
    | ⟨2, _⟩ => show win0_0.index t (2 : Fin 4) * 32 + 1 * (y 2).val = win0_2.index t (2 : Fin 4) * 32 + 1 * (y 2).val; omega
    | ⟨3, _⟩ => show win0_0.index t (3 : Fin 4) * 512 + 1 * k.val = k.val; omega
  have hO : ((cfg0.win 0).blk t).view.emb (ix4 (0 : Fin 1) (oddRow (y 1)) (y 2) k)
      = ix4 ((((cfg0.win 2).blk t).view.emb y) 0) (oddOf ((((cfg0.win 2).blk t).view.emb y) 1))
          ((((cfg0.win 2).blk t).view.emb y) 2) k := by
    funext a; apply Fin.ext
    match a with
    | ⟨0, _⟩ => show win0_0.index t (0 : Fin 4) * 1 + 1 * 0 = win0_2.index t (0 : Fin 4) * 1 + 1 * (y 0).val; omega
    | ⟨1, _⟩ => show win0_0.index t (1 : Fin 4) * 128 + 1 * (2 * (y 1).val + 1) = 2 * (win0_2.index t (1 : Fin 4) * 64 + 1 * (y 1).val) + 1; omega
    | ⟨2, _⟩ => show win0_0.index t (2 : Fin 4) * 32 + 1 * (y 2).val = win0_2.index t (2 : Fin 4) * 32 + 1 * (y 2).val; omega
    | ⟨3, _⟩ => show win0_0.index t (3 : Fin 4) * 512 + 1 * k.val = k.val; omega
  have hP : ((cfg0.win 1).blk t).view.emb (ix2 k (y 3)) = ix2 k ((((cfg0.win 2).blk t).view.emb y) 3) := by
    funext a; apply Fin.ext
    match a with
    | ⟨0, _⟩ => show win0_1.index t (0 : Fin 2) * 512 + 1 * k.val = k.val; omega
    | ⟨1, _⟩ => show win0_1.index t (1 : Fin 2) * 256 + 1 * (y 3).val = win0_2.index t (3 : Fin 4) * 256 + 1 * (y 3).val; omega
  refine congrArg₂ (· * ·) (congrArg₂ (· + ·) ?_ ?_) ?_
  · exact congrArg (V m c main_v0 : S32x512x32x512.Idx → EReal) hE
  · exact congrArg (V m c main_v0 : S32x512x32x512.Idx → EReal) hO
  · exact congrArg (V m c main_v10 : S512x256.Idx → EReal) hP

/-- An index of the result array is in grid point t's block iff each coordinate is in the block's range. -/
theorem mem_block (t : Fin cfg0.N) (i : S32x256x32x256.Idx) :
    i ∈ ((cfg0.win 2).blk t).view.set ↔ ∀ a : Fin 4, win0_2.index t a * S1x64x32x256.size a ≤ (i a).val
      ∧ (i a).val < win0_2.index t a * S1x64x32x256.size a + S1x64x32x256.size a := by
  show i ∈ ((View.whole main_v11).slice (win0_2.rect t)).set ↔ _
  rw [View.set_slice_whole, Rect.mem_set_unit]
  exact Iff.rfl

/-- Every index of the result array is in the block of the grid point of its image and its row group. -/
theorem covered (i : S32x256x32x256.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 32 := (i 2).isLt
  have hi3 : (i 3).val < 256 := (i 3).isLt
  obtain ⟨t, ht⟩ := index_onto ⟨(i 0).val, hi0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 32 ≤ (i 2).val ∧ (i 2).val < win0_2.index t (2 : Fin 4) * 32 + 32; omega
  | ⟨3, _⟩ => show win0_2.index t (3 : Fin 4) * 256 ≤ (i 3).val ∧ (i 3).val < win0_2.index t (3 : Fin 4) * 256 + 256; omega

/-- The result array after the run is `pooled` of the two arrays the region found. -/
theorem final (c : Dev nD) :
    (dats m 0 c).arrAt 2 cfg0.N = pooled (V m c main_v0) (V m c main_v10) :=
  (dats m 0 c).arrAt_eq_of_cover 2 (pooled (V m c main_v0) (V m c main_v10)) (fun t _ => flushed_eq m c t) covered

end Cert.HaarPool.Blocks

end
-- ==== Proof.HaarKernel.lean ====
/-
  The kernel's run, read. After the region the result array [32, 256, 32, 256] is `pooled` of the exchanged input and
  the pairing matrix; the one host operation after the region exchanges its last two axes back. Entry (b, p, q, c)
  of the program's result is therefore the sum over k of (input (b, 2p, k, c) + input (b, 2p + 1, k, c)) times the
  pairing matrix's entry (k, q), which the pairing law turns into one half of
  (input (b, 2p, 2q, c) + input (b, 2p + 1, 2q, c)) + (input (b, 2p, 2q + 1, c) + input (b, 2p + 1, 2q + 1, c)):
  the low-low band, its four terms taken columns first; addition on the extended reals commutes and associates.
-/
import proofs.«168164_g9088150799036_feedfinal_321_15_alg».proof.Proof.Gen.KernelIdeal.Frame
import proofs.«168164_g9088150799036_feedfinal_321_15_alg».proof.Proof.HaarSpec
import proofs.«168164_g9088150799036_feedfinal_321_15_alg».proof.Proof.HaarPrelude
import proofs.«168164_g9088150799036_feedfinal_321_15_alg».proof.Proof.HaarBlocks
import Idealize.ShloMosaic.Lib.StableHlo.Run
import Idealize.ShloMosaic.Lib.Pipeline.Value

noncomputable section

namespace Cert.HaarPool.Kernel

open Idealize.ShloMosaic Idealize.ShloMosaic.TcCoe Idealize.ShloMosaic.ValueIdx Idealize.SL.Sem Idealize.ShloMosaic.StableHlo
open Cert.KernelIdeal Cert.KernelIdeal.Gen Cert.HaarPool.Prelude Cert.HaarPool.Blocks

/-- For ANY first array that is x with its last two axes exchanged, contracted against the pairing matrix: `pooled` at
    (b, p, c, q) is the low-low band of x at (b, p, q, c). -/
theorem pooled_of (first : S32x512x32x512.Idx → EReal) (second : S512x256.Idx → EReal) (x : S32x512x512x32.Idx → EReal)
    (hfirst : ∀ (b : Fin 32) (h : Fin 512) (ch : Fin 32) (w : Fin 512), first (ix4 b h ch w) = x (ix4 b h w ch))
    (hsecond : second = pairing) (b : Fin 32) (p : Fin 256) (q : Fin 256) (ch : Fin 32) :
    pooled first second (ix4 b p ch q) = lowpass x (ix4 b p q ch) := by
  subst hsecond
  show ∑ k : Fin 512, (first (ix4 b (evenOf p) ch k) + first (ix4 b (oddOf p) ch k)) * pairing (ix2 k q) = _
  simp only [hfirst, pairing_apply]
  rw [sum_pairing (fun k => x (ix4 b (evenOf p) k ch) + x (ix4 b (oddOf p) k ch))
      (fun k => if k.val / 2 = q.val then 1 else 0) q (fun _ => rfl)]
  show ((x (ix4 b (evenOf p) (evenOf q) ch) + x (ix4 b (oddOf p) (evenOf q) ch))
        + (x (ix4 b (evenOf p) (oddOf q) ch) + x (ix4 b (oddOf p) (oddOf q) ch))) * half
      = ((x (ix4 b (evenOf p) (evenOf q) ch) + x (ix4 b (evenOf p) (oddOf q) ch))
        + (x (ix4 b (oddOf p) (evenOf q) ch) + x (ix4 b (oddOf p) (oddOf q) ch))) * half
  rw [add_add_add_comm]

variable (m : (ℓ : Loc nD τ sig) → Buf (Elt Ideal) ℓ) (ρ : Dev nD → PrngReg)

/-- The program's result after the host operation that follows the region: the low-low band of the input. -/
theorem tail_eq (c : Dev nD) :
    Pipeline.afterTail₀ cfgs (dats m) 0 (V0 m) [hostOps1] c main_v12
      = lowpass (m ((c : Thread nD τ).loc main_arg0)) := by
  unfold Pipeline.afterTail₀
  show StableHlo.after hostOps1 _ (Proc.devRef .tc main_v12) = _
  after_results
  have e : Pipeline.withArrays (cfgs 0).spec c (V0 m c) (fun w => (dats m 0 c).arrAt w (cfgs 0).N) (Proc.devRef .tc main_v11)
      = pooled (V m c main_v0) (V m c main_v10) :=
    (Pipeline.withArrays_arr spec0 launch0.win.arr_inj c _ _ 2).trans (final m c)
  rw [e]
  funext i
  refine (transpose_apply _ _ _ i (ix4 (i 0) (i 1) (i 3) (i 2))
    (fun b => match b with | ⟨0, _⟩ => rfl | ⟨1, _⟩ => rfl | ⟨2, _⟩ => rfl | ⟨3, _⟩ => rfl)).trans ?_
  exact (pooled_of _ _ _ (found_swapped_apply m c) (found_pairing m c) (i 0) (i 1) (i 2) (i 3)).trans
    (congrArg (lowpass (m ((c : Thread nD τ).loc main_arg0))) (eq_ix4 i).symm)

/-- Every weakly fair execution of the idealized kernel terminates with its result at the low-low band of its
    input and the input unchanged. -/
theorem run : θ_run defs (onTc (τ := τ) (main (F := Ideal))) ⟨m, fun _ => 0, ρ⟩ fun r => ∀ c : Dev nD,
      r.2.mem ((c.tc : Thread nD τ).loc main_v12) = lowpass (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v12 (Pipeline.mem_restRefs_of main_v12 (by decide) (by decide))).trans (tail_eq m c),
        ((h c).2 main_arg0 (Pipeline.mem_restRefs_of main_arg0 (by decide) (by decide))).trans (W_main_arg0 m (dats m) c)⟩)
    (run_main m ρ)

end Cert.HaarPool.Kernel

end
-- ==== Proof.lean ====
/- The proof of `Cert.Claim`: a kernel for the low-low band of one level of the two-dimensional Haar transform
   (2 × 2 average pooling scaled by two) over float32[32, 512, 512, 32], against its jnp reference.

   The reference views the input as [32, 256, 2, 256, 2, 32], sums over the two axes of extent two and multiplies by
   one half: entry (b, p, q, c) is one half of the sum of the 2 × 2 block at (b, 2p, 2q, c) (Proof/HaarReference.lean).
   The kernel exchanges the input's last two axes, and at each point of a 32 × 4 grid adds the two rows of each of
   64 row pairs and multiplies the [2048, 512] matrix of those sums by a constant [512, 256] pairing matrix whose
   entry (k, q) is one half when k is 2q or 2q + 1 and zero otherwise; a final exchange of axes restores the
   layout. Proof/HaarPrelude.lean reads the two arrays the region finds, Proof/HaarBody.lean what the body stores,
   Proof/HaarBlocks.lean that the 128 stored blocks tile the result array with one function of the two arrays, and
   Proof/HaarKernel.lean that this function, its axes exchanged back, is the low-low band: contracting a row
   against column q of the pairing matrix leaves the row's two entries on the q-th pair, halved
   (Proof/HaarSpec.lean), and the four terms are then those of the reference in another order. One half is a
   nonnegative real, which distributes over any sum of extended reals, and a product with zero is zero, so the two
   programs agree at every input of extended reals; the precondition is not used. The ideal pass rewrote nothing, so
   `preserves` is trivial; the three frames are the generated ones (the reference's is its generated run). -/
import proofs.«168164_g9088150799036_feedfinal_321_15_alg».proof.Defs
import proofs.«168164_g9088150799036_feedfinal_321_15_alg».proof.Proof.Gen.Kernel
import proofs.«168164_g9088150799036_feedfinal_321_15_alg».proof.Proof.Gen.Kernel.Skeleton
import proofs.«168164_g9088150799036_feedfinal_321_15_alg».proof.Proof.Gen.Kernel.Launch
import proofs.«168164_g9088150799036_feedfinal_321_15_alg».proof.Proof.Gen.Kernel.Points
import proofs.«168164_g9088150799036_feedfinal_321_15_alg».proof.Proof.Gen.Kernel.Frame
import proofs.«168164_g9088150799036_feedfinal_321_15_alg».proof.Proof.Gen.KernelIdeal
import proofs.«168164_g9088150799036_feedfinal_321_15_alg».proof.Proof.Gen.KernelIdeal.Skeleton
import proofs.«168164_g9088150799036_feedfinal_321_15_alg».proof.Proof.Gen.KernelIdeal.Launch
import proofs.«168164_g9088150799036_feedfinal_321_15_alg».proof.Proof.Gen.KernelIdeal.Points
import proofs.«168164_g9088150799036_feedfinal_321_15_alg».proof.Proof.Gen.KernelIdeal.Frame
import proofs.«168164_g9088150799036_feedfinal_321_15_alg».proof.Proof.Gen.ReferenceIdeal
import proofs.«168164_g9088150799036_feedfinal_321_15_alg».proof.Proof.Gen.Pre_finite_inputs
import proofs.«168164_g9088150799036_feedfinal_321_15_alg».proof.Proof.Gen.ReferenceIdeal.Run
import proofs.«168164_g9088150799036_feedfinal_321_15_alg».proof.Proof.Gen.ReferenceIdeal.Read
import proofs.«168164_g9088150799036_feedfinal_321_15_alg».proof.Proof.HaarSpec
import proofs.«168164_g9088150799036_feedfinal_321_15_alg».proof.Proof.HaarReference
import proofs.«168164_g9088150799036_feedfinal_321_15_alg».proof.Proof.HaarKernel
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the low-low band of the input in their result: the kernel's run (Proof/HaarKernel.lean)
    and the reference's run, whose term is that function (Proof/HaarReference.lean), from inputs that agree. -/
theorem algebraic : Cert.algebraic_KernelIdeal_ReferenceIdeal := by
  intro m ρ m' ρ' _ hagree
  refine ⟨fun c => Cert.HaarPool.lowpass (m ((c.tc : Thread Cert.KernelIdeal.nD Cert.KernelIdeal.τ).loc Cert.KernelIdeal.main_arg0)),
    Cert.HaarPool.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.HaarPool.Reference.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
